-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S3072 .f32) (main_arg5 : FVec F S1024x3072 .f32) (main_arg6 : FVec F S3072 .f32) (main_arg7 : FVec F S1024x1024 .f32) (main_arg8 : FVec F S1024 .f32) (main_arg9 : FVec F S1024x1024 .f32) (main_arg10 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S1024x3072 .f32) (main_arg4 : FVec F S3072 .f32) (main_arg5 : FVec F S1024x3072 .f32) (main_arg6 : FVec F S3072 .f32) (main_arg7 : FVec F S1024x1024 .f32) (main_arg8 : FVec F S1024 .f32) (main_arg9 : FVec F S1024x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x4096 : Shape := ⟨2, ![1024, 4096]⟩
abbrev S1x3072 : Shape := ⟨2, ![1, 3072]⟩
abbrev S1x1024 : Shape := ⟨2, ![1, 1024]⟩
abbrev S1x4096 : Shape := ⟨2, ![1, 4096]⟩
abbrev S128x1024 : Shape := ⟨2, ![128, 1024]⟩
abbrev S128x4096 : Shape := ⟨2, ![128, 4096]⟩
abbrev S128x3072 : Shape := ⟨2, ![128, 3072]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x3072, .f32⟩
  | .hbm, ⟨4, _⟩ => ⟨S3072, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S1024x4096, .f32⟩
  | .hbm, ⟨14, _⟩ => ⟨S1024x4096, .bf16⟩
  | .hbm, ⟨15, _⟩ => ⟨S3072, .f32⟩
  | .hbm, ⟨16, _⟩ => ⟨S1x3072, .f32⟩
  | .hbm, ⟨17, _⟩ => ⟨S1024, .f32⟩
  | .hbm, ⟨18, _⟩ => ⟨S1x1024, .f32⟩
  | .hbm, ⟨19, _⟩ => ⟨S1x4096, .f32⟩
  | .hbm, ⟨20, _⟩ => ⟨S4096x1024, .f32⟩
  | .hbm, ⟨21, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x3072_S1024x1024_S1024x4096_d1 : Shape.Concatenates [S1024x3072, S1024x1024] S1024x4096 1
  bitsLt_bf16_f32 : FTy.bits .bf16 < FTy.bits .f32
  shapeCasts_S3072_S1x3072 : S3072.ShapeCasts S1x3072
  shapeCasts_S1024_S1x1024 : S1024.ShapeCasts S1x1024
  concatenates_S1x3072_S1x1024_S1x4096_d1 : Shape.Concatenates [S1x3072, S1x1024] S1x4096 1
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x3072 : S128x4096.Slices ![0, 0] S128x3072
  slices_S128x4096_o0_3072_S128x1024 : S128x4096.Slices ![0, 3072] S128x1024
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x3072 : Shape := ⟨2, ![4096, 3072]⟩
abbrev S1x3072 : Shape := ⟨2, ![1, 3072]⟩
abbrev S_ : Shape := ⟨0, ![]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x3072, .f32⟩
  | .hbm, ⟨4, _⟩ => ⟨S3072, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x3072, .f32⟩
  | .hbm, ⟨12, _⟩ => ⟨S1x3072, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x3072_S4096x3072_1_0_0_1_n_n_wf : DotDims.WF S4096x1024 S1024x3072 S4096x3072 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Spec.lean ====
/-
  The recurrent cell both programs compute, as functions of the eleven argument arrays, index by index, over the
  extended reals.

  For a batch row r and a hidden column q the four pre-activations are dense layers of the row x(r, ·) and of the row
  h(r, ·): three gate columns q, q + 1024, q + 2048 of a layer 3072 wide, and one candidate column q of a layer 1024
  wide. Each is  x(r, ·) · Wx(·, j) + bx(j) + h(r, ·) · Wh(·, j) + bh(j).  The new cell state is
  logistic(z_i) · tanh(a) + logistic(z_f) · c(r, q)  and the new hidden state is  logistic(z_o) · tanh(new cell).

  The one law used between the two programs: the four summands of a pre-activation may be grouped either way,
  (A + C) + (bx + bh) = ((A + bx) + C) + bh, which holds on the extended reals because their addition is
  commutative and associative (no finiteness is needed).
-/
import Idealize.ShloMosaic.PureOps.Ideal
import Idealize.ShloMosaic.Lib.ValueIdx

noncomputable section

open scoped BigOperators

namespace Cert.LstmSpec

open Idealize.ShloMosaic Idealize.ShloMosaic.ValueIdx

/-- One dense pre-activation at row r and column j of a layer n wide, the summands taken in the order
    ((x·Wx + bx) + h·Wh) + bh. -/
def densePre {n : Nat} (x h : (⟨2, ![4096, 1024]⟩ : Shape).Idx → EReal)
    (Wx Wh : (⟨2, ![1024, n]⟩ : Shape).Idx → EReal) (bx bh : (⟨1, ![n]⟩ : Shape).Idx → EReal)
    (r : Fin 4096) (j : Fin n) : EReal :=
  (∑ k : Fin 1024, x (ix2 r k) * Wx (ix2 k j)) + bx (ix1 j) + (∑ k : Fin 1024, h (ix2 r k) * Wh (ix2 k j)) + bh (ix1 j)

/-- The two matrix products first and the two biases added to each other first, or one after the other:
    the same extended real. -/
theorem regroup (A C bx bh : EReal) : (A + C) + (bx + bh) = A + bx + C + bh := by
  rw [add_add_add_comm, ← add_assoc]

/-- The new cell state from the input gate's, the forget gate's and the candidate's pre-activations and the old state. -/
def cellOf (zi zf a cp : EReal) : EReal := Ideal.logistic zi * Ideal.tanh a + Ideal.logistic zf * cp

/-- The new hidden state from the output gate's pre-activation and the new cell state. -/
def hidOf (zo cn : EReal) : EReal := Ideal.logistic zo * Ideal.tanh cn

/-- The input gate's column of the 3072-wide layer for hidden column q, -/
def colI (q : Fin 1024) : Fin 3072 := ⟨q.val, by have := q.isLt; omega⟩
/-- the forget gate's, -/
def colF (q : Fin 1024) : Fin 3072 := ⟨q.val + 1024, by have := q.isLt; omega⟩
/-- the output gate's. -/
def colO (q : Fin 1024) : Fin 3072 := ⟨q.val + 2048, by have := q.isLt; omega⟩

section
variable (x h c : (⟨2, ![4096, 1024]⟩ : Shape).Idx → EReal)
  (Wix : (⟨2, ![1024, 3072]⟩ : Shape).Idx → EReal) (bix : (⟨1, ![3072]⟩ : Shape).Idx → EReal)
  (Wih : (⟨2, ![1024, 3072]⟩ : Shape).Idx → EReal) (bih : (⟨1, ![3072]⟩ : Shape).Idx → EReal)
  (Wbx : (⟨2, ![1024, 1024]⟩ : Shape).Idx → EReal) (bbx : (⟨1, ![1024]⟩ : Shape).Idx → EReal)
  (Wbh : (⟨2, ![1024, 1024]⟩ : Shape).Idx → EReal) (bbh : (⟨1, ![1024]⟩ : Shape).Idx → EReal)

/-- The new cell state at (r, q). -/
def cellNew (i : (⟨2, ![4096, 1024]⟩ : Shape).Idx) : EReal :=
  cellOf (densePre x h Wix Wih bix bih (i 0) (colI (i 1))) (densePre x h Wix Wih bix bih (i 0) (colF (i 1)))
    (densePre x h Wbx Wbh bbx bbh (i 0) (i 1)) (c i)

/-- The new hidden state at (r, q). -/
def hidNew (i : (⟨2, ![4096, 1024]⟩ : Shape).Idx) : EReal :=
  hidOf (densePre x h Wix Wih bix bih (i 0) (colO (i 1))) (cellNew x h c Wix bix Wih bih Wbx bbx Wbh bbh i)

end

end Cert.LstmSpec

end
-- ==== Proof.Proj.lean ====
/-
  The fused projection of one row block, read at an index.

  The kernel's body forms, for its 128 rows, the 128 × 4096 matrix  x_blk · W4x + h_blk · W4h + b4  (the bias row
  repeated down the rows). At row p and column j this is the sum over k of x_blk(p, k) · W4x(k, j), plus the sum
  over k of h_blk(p, k) · W4h(k, j), plus b4(0, j): two matrix products into zero accumulators (the changes of float
  format are the identity on extended reals) and a broadcast row.

  Where column j of the fused weights and of the fused bias is column j' of one dense layer (its two weight matrices,
  and the sum of its two biases), the entry is that layer's pre-activation: the four summands regrouped.
-/
import proofs.«114930_j60206851555531_2_alg».proof.Proof.Gen.KernelIdeal.Skeleton
import proofs.«114930_j60206851555531_2_alg».proof.Proof.LibMatmulPlain
import proofs.«114930_j60206851555531_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Proj

open Cert.KernelIdeal Cert.KernelIdeal.Gen Idealize.ShloMosaic Idealize.ShloMosaic.ValueIdx

/-- The fused projection at row p and column j. -/
theorem pay1_apply (P0 P1 : Vec Ideal S128x1024 .f32) (P2 P3 : Vec Ideal S1024x4096 .bf16) (P4 : Vec Ideal S1x4096 .f32)
    (p : Fin 128) (j : Fin 4096) :
    k0_pay1 (F := Ideal) P0 P1 P2 P3 P4 (ix2 p j)
      = (∑ k : Fin 1024, P0 (ix2 p k) * P2 (ix2 k j)) + (∑ k : Fin 1024, P1 (ix2 p k) * P3 (ix2 k j)) + P4 (ix2 0 j) := by
  unfold k0_pay1
  simp only [shapeCast_self]
  have e7 := MatmulPlain.matmul_zero_apply (M := 128) (K := 1024) (N := 4096) (φ₁ := .bf16) (φ₂ := .bf16) none
    (truncf FTy.bf16 P0 bitsLt_bf16_f32) P2 (ix2 p j)
  have e10 := MatmulPlain.matmul_zero_apply (M := 128) (K := 1024) (N := 4096) (φ₁ := .bf16) (φ₂ := .bf16) none
    (truncf FTy.bf16 P1 bitsLt_bf16_f32) P3 (ix2 p j)
  have e14 : broadcastTo S128x4096 P4 broadcasts_S1x4096_S128x4096 (ix2 p j) = P4 (ix2 0 j) :=
    broadcastTo_apply P4 _ (ix2 p j) (ix2 0 j) (fun a => match a with
      | ⟨0, _⟩ => by show (0 : Nat) = if (1 : Nat) = 1 then 0 else _; rw [if_pos rfl]
      | ⟨1, _⟩ => by show j.val = if (4096 : Nat) = 1 then 0 else j.val; rw [if_neg (by decide)])
  refine (congrArg₂ (· + ·) (congrArg₂ (· + ·) e7 e10) e14).trans ?_
  rfl

/-- At a column j' where the fused operands hold column j of one dense layer — the two weight matrices' entries and
    the sum of the two biases — and for a block row p that is row r of the whole arrays, the fused projection is that
    layer's pre-activation at (r, j). -/
theorem pay1_dense {n : Nat} (P0 P1 : Vec Ideal S128x1024 .f32) (P2 P3 : Vec Ideal S1024x4096 .bf16)
    (P4 : Vec Ideal S1x4096 .f32) (X H : (⟨2, ![4096, 1024]⟩ : Shape).Idx → EReal)
    (Wx Wh : (⟨2, ![1024, n]⟩ : Shape).Idx → EReal) (bx bh : (⟨1, ![n]⟩ : Shape).Idx → EReal)
    (p : Fin 128) (r : Fin 4096) (j' : Fin 4096) (j : Fin n)
    (h0 : ∀ k : Fin 1024, P0 (ix2 p k) = X (ix2 r k)) (h1 : ∀ k : Fin 1024, P1 (ix2 p k) = H (ix2 r k))
    (hx : ∀ k : Fin 1024, P2 (ix2 k j') = Wx (ix2 k j)) (hh : ∀ k : Fin 1024, P3 (ix2 k j') = Wh (ix2 k j))
    (hb : P4 (ix2 0 j') = bx (ix1 j) + bh (ix1 j)) :
    k0_pay1 (F := Ideal) P0 P1 P2 P3 P4 (ix2 p j') = LstmSpec.densePre X H Wx Wh bx bh r j := by
  rw [pay1_apply, hb]
  unfold LstmSpec.densePre
  simp only [h0, h1, hx, hh]
  exact LstmSpec.regroup _ _ _ _

end Cert.KernelIdeal.Proj

end
-- ==== Proof.Block.lean ====
/-
  What one grid point leaves in its two output blocks, against the whole arrays.

  At a point the body sees a 128-row block of x, of h_prev and of c_prev, and the whole fused weights and bias. Suppose
  row p of the blocks is row r of the whole arrays, and the fused operands hold the gate layer in columns 0 .. 3071 and
  the candidate layer in columns 3072 .. 4095 (weights as they are, biases summed). Then the four columns q, q + 1024,
  q + 2048, q + 3072 of the fused projection at row p are the input gate's, the forget gate's, the output gate's and
  the candidate's pre-activations at (r, q); so the block entry (p, q) of the cell output is the new cell state at
  (r, q), and that of the hidden output the new hidden state.
-/
import proofs.«114930_j60206851555531_2_alg».proof.Proof.Gen.KernelIdeal.Value
import proofs.«114930_j60206851555531_2_alg».proof.Proof.Proj

noncomputable section

namespace Cert.KernelIdeal.Block

open Cert.KernelIdeal Cert.KernelIdeal.Gen Idealize.ShloMosaic Idealize.ShloMosaic.ValueIdx

/-- The body's loads at block row p, read against the whole arrays at row r: the three row blocks, and the fused
    weights and bias column by column. -/
structure Reads (P0 P1 P5 : Vec Ideal S128x1024 .f32) (P2 P3 : Vec Ideal S1024x4096 .bf16) (P4 : Vec Ideal S1x4096 .f32)
    (X H C : (⟨2, ![4096, 1024]⟩ : Shape).Idx → EReal)
    (Wix : (⟨2, ![1024, 3072]⟩ : Shape).Idx → EReal) (bix : (⟨1, ![3072]⟩ : Shape).Idx → EReal)
    (Wih : (⟨2, ![1024, 3072]⟩ : Shape).Idx → EReal) (bih : (⟨1, ![3072]⟩ : Shape).Idx → EReal)
    (Wbx : (⟨2, ![1024, 1024]⟩ : Shape).Idx → EReal) (bbx : (⟨1, ![1024]⟩ : Shape).Idx → EReal)
    (Wbh : (⟨2, ![1024, 1024]⟩ : Shape).Idx → EReal) (bbh : (⟨1, ![1024]⟩ : Shape).Idx → EReal)
    (p : Fin 128) (r : Fin 4096) : Prop where
  x_row : ∀ k : Fin 1024, P0 (ix2 p k) = X (ix2 r k)
  h_row : ∀ k : Fin 1024, P1 (ix2 p k) = H (ix2 r k)
  c_row : ∀ q : Fin 1024, P5 (ix2 p q) = C (ix2 r q)
  wx_gate : ∀ (k : Fin 1024) (j : Fin 3072), P2 (ix2 k ⟨j.val, by have := j.isLt; omega⟩) = Wix (ix2 k j)
  wx_cand : ∀ (k : Fin 1024) (q : Fin 1024), P2 (ix2 k ⟨q.val + 3072, by have := q.isLt; omega⟩) = Wbx (ix2 k q)
  wh_gate : ∀ (k : Fin 1024) (j : Fin 3072), P3 (ix2 k ⟨j.val, by have := j.isLt; omega⟩) = Wih (ix2 k j)
  wh_cand : ∀ (k : Fin 1024) (q : Fin 1024), P3 (ix2 k ⟨q.val + 3072, by have := q.isLt; omega⟩) = Wbh (ix2 k q)
  b_gate : ∀ j : Fin 3072, P4 (ix2 0 ⟨j.val, by have := j.isLt; omega⟩) = bix (ix1 j) + bih (ix1 j)
  b_cand : ∀ q : Fin 1024, P4 (ix2 0 ⟨q.val + 3072, by have := q.isLt; omega⟩) = bbx (ix1 q) + bbh (ix1 q)

section
variable {P0 P1 P5 : Vec Ideal S128x1024 .f32} {P2 P3 : Vec Ideal S1024x4096 .bf16} {P4 : Vec Ideal S1x4096 .f32}
  {X H C : (⟨2, ![4096, 1024]⟩ : Shape).Idx → EReal}
  {Wix : (⟨2, ![1024, 3072]⟩ : Shape).Idx → EReal} {bix : (⟨1, ![3072]⟩ : Shape).Idx → EReal}
  {Wih : (⟨2, ![1024, 3072]⟩ : Shape).Idx → EReal} {bih : (⟨1, ![3072]⟩ : Shape).Idx → EReal}
  {Wbx : (⟨2, ![1024, 1024]⟩ : Shape).Idx → EReal} {bbx : (⟨1, ![1024]⟩ : Shape).Idx → EReal}
  {Wbh : (⟨2, ![1024, 1024]⟩ : Shape).Idx → EReal} {bbh : (⟨1, ![1024]⟩ : Shape).Idx → EReal}
  {p : Fin 128} {r : Fin 4096}

/-- A fused column below 3072, at block row p: the gate layer's pre-activation at row r. -/
theorem gate_at (R : Reads P0 P1 P5 P2 P3 P4 X H C Wix bix Wih bih Wbx bbx Wbh bbh p r) (i : S128x4096.Idx) (j : Fin 3072)
    (e0 : (i 0).val = p.val) (e1 : (i 1).val = j.val) :
    k0_pay1 (F := Ideal) P0 P1 P2 P3 P4 i = LstmSpec.densePre X H Wix Wih bix bih r j := by
  have hi : i = ix2 p ⟨j.val, by have := j.isLt; omega⟩ :=
    funext fun a => Fin.ext (match a with | ⟨0, _⟩ => e0 | ⟨1, _⟩ => e1)
  rw [hi]
  exact Proj.pay1_dense P0 P1 P2 P3 P4 X H Wix Wih bix bih p r _ j R.x_row R.h_row (fun k => R.wx_gate k j)
    (fun k => R.wh_gate k j) (R.b_gate j)

/-- A fused column 3072 + q, at block row p: the candidate layer's pre-activation at row r. -/
theorem cand_at (R : Reads P0 P1 P5 P2 P3 P4 X H C Wix bix Wih bih Wbx bbx Wbh bbh p r) (i : S128x4096.Idx) (q : Fin 1024)
    (e0 : (i 0).val = p.val) (e1 : (i 1).val = q.val + 3072) :
    k0_pay1 (F := Ideal) P0 P1 P2 P3 P4 i = LstmSpec.densePre X H Wbx Wbh bbx bbh r q := by
  have hi : i = ix2 p ⟨q.val + 3072, by have := q.isLt; omega⟩ :=
    funext fun a => Fin.ext (match a with | ⟨0, _⟩ => e0 | ⟨1, _⟩ => e1)
  rw [hi]
  exact Proj.pay1_dense P0 P1 P2 P3 P4 X H Wbx Wbh bbx bbh p r _ q R.x_row R.h_row (fun k => R.wx_cand k q)
    (fun k => R.wh_cand k q) (R.b_cand q)

/-- The cell output's block entry (p, q) is the new cell state at (r, q). -/
theorem cell_at (R : Reads P0 P1 P5 P2 P3 P4 X H C Wix bix Wih bih Wbx bbx Wbh bbh p r) (q : Fin 1024) :
    Value.E7 (F := Ideal) P0 P1 P2 P3 P4 P5 (ix2 p q) = LstmSpec.cellNew X H C Wix bix Wih bih Wbx bbx Wbh bbh (ix2 r q) := by
  have g0 := gate_at R (Value.ix7_0 (ix2 p q)) (LstmSpec.colI q) rfl rfl
  have g1 := cand_at R (Value.ix7_1 (ix2 p q)) q rfl rfl
  have g2 := gate_at R (Value.ix7_2 (ix2 p q)) (LstmSpec.colF q) rfl rfl
  have g3 : P5 (Value.ix7_3 (ix2 p q)) = C (ix2 r q) :=
    (congrArg P5 (funext fun a => match a with | ⟨0, _⟩ => rfl | ⟨1, _⟩ => rfl : Value.ix7_3 (ix2 p q) = ix2 p q)).trans (R.c_row q)
  show FloatOps.addf (FloatOps.mulf (FloatOps.logistic (k0_pay1 (F := Ideal) P0 P1 P2 P3 P4 (Value.ix7_0 (ix2 p q))))
      (FloatOps.tanh (k0_pay1 (F := Ideal) P0 P1 P2 P3 P4 (Value.ix7_1 (ix2 p q)))))
    (FloatOps.mulf (FloatOps.logistic (k0_pay1 (F := Ideal) P0 P1 P2 P3 P4 (Value.ix7_2 (ix2 p q)))) (P5 (Value.ix7_3 (ix2 p q)))) = _
  rw [g0, g1, g2, g3]
  rfl

/-- The hidden output's block entry (p, q) is the new hidden state at (r, q). -/
theorem hid_at (R : Reads P0 P1 P5 P2 P3 P4 X H C Wix bix Wih bih Wbx bbx Wbh bbh p r) (q : Fin 1024) :
    Value.E6 (F := Ideal) P0 P1 P2 P3 P4 P5 (ix2 p q) = LstmSpec.hidNew X H C Wix bix Wih bih Wbx bbx Wbh bbh (ix2 r q) := by
  have g0 := gate_at R (Value.ix6_0 (ix2 p q)) (LstmSpec.colO q) rfl rfl
  have g1 := gate_at R (Value.ix6_1 (ix2 p q)) (LstmSpec.colI q) rfl rfl
  have g2 := cand_at R (Value.ix6_2 (ix2 p q)) q rfl rfl
  have g3 := gate_at R (Value.ix6_3 (ix2 p q)) (LstmSpec.colF q) rfl rfl
  have g4 : P5 (Value.ix6_4 (ix2 p q)) = C (ix2 r q) :=
    (congrArg P5 (funext fun a => match a with | ⟨0, _⟩ => rfl | ⟨1, _⟩ => rfl : Value.ix6_4 (ix2 p q) = ix2 p q)).trans (R.c_row q)
  show FloatOps.mulf (FloatOps.logistic (k0_pay1 (F := Ideal) P0 P1 P2 P3 P4 (Value.ix6_0 (ix2 p q))))
    (FloatOps.tanh (FloatOps.addf
      (FloatOps.mulf (FloatOps.logistic (k0_pay1 (F := Ideal) P0 P1 P2 P3 P4 (Value.ix6_1 (ix2 p q))))
        (FloatOps.tanh (k0_pay1 (F := Ideal) P0 P1 P2 P3 P4 (Value.ix6_2 (ix2 p q)))))
      (FloatOps.mulf (FloatOps.logistic (k0_pay1 (F := Ideal) P0 P1 P2 P3 P4 (Value.ix6_3 (ix2 p q)))) (P5 (Value.ix6_4 (ix2 p q)))))) = _
  rw [g0, g1, g2, g3, g4]
  rfl

end

end Cert.KernelIdeal.Block

end
-- ==== Proof.HostVals.lean ====
/-
  What the region finds in its three resident operands.

  Before the launch the fused weights and the fused bias are assembled from the arguments: the x-weights
  [1024, 4096] are W_ifo_x beside W_b_x (columns 0 .. 3071 and 3072 .. 4095), the h-weights likewise from W_ifo_h
  and W_b_h, and the bias row [1, 4096] is b_ifo_x + b_ifo_h beside b_b_x + b_b_h. (The weights' change of float
  format is the identity on extended reals.) Here each is read at an index of either part.
-/
import proofs.«114930_j60206851555531_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostVals

open Cert.KernelIdeal Cert.KernelIdeal.Gen Idealize.ShloMosaic Idealize.ShloMosaic.TcCoe Idealize.SL.Sem
open Idealize.ShloMosaic.ValueIdx Idealize.ShloMosaic.StableHlo

/-! ## Two matrices side by side, and two rows side by side, at an index -/

section Generic
variable {α : Type}

/-- [1024, 3072] beside [1024, 1024]: a column below 3072 is the left matrix's. -/
theorem beside_left (a : S1024x3072.Idx → α) (b : S1024x1024.Idx → α) (k : Fin 1024) (j : Fin 3072) :
    concatenate S1024x4096 1 [⟨S1024x3072, a⟩, ⟨S1024x1024, b⟩] concatenates_S1024x3072_S1024x1024_S1024x4096_d1
      (ix2 k ⟨j.val, by have := j.isLt; omega⟩) = a (ix2 k j) :=
  concatenate_pair_apply_left (t := S1024x4096) (s₁ := S1024x3072) (s₂ := S1024x1024) 1 a b
    concatenates_S1024x3072_S1024x1024_S1024x4096_d1 (ix2 k ⟨j.val, by have := j.isLt; omega⟩) rfl (ix2 k j)
    (fun b => match b with | ⟨0, _⟩ => rfl | ⟨1, _⟩ => rfl)

/-- A column 3072 + q is the right matrix's column q. -/
theorem beside_right (a : S1024x3072.Idx → α) (b : S1024x1024.Idx → α) (k : Fin 1024) (q : Fin 1024) (j' : Fin 4096)
    (hj : j'.val = q.val + 3072) :
    concatenate S1024x4096 1 [⟨S1024x3072, a⟩, ⟨S1024x1024, b⟩] concatenates_S1024x3072_S1024x1024_S1024x4096_d1
      (ix2 k j') = b (ix2 k q) :=
  concatenate_pair_apply_right (t := S1024x4096) (s₁ := S1024x3072) (s₂ := S1024x1024) 1 a b
    concatenates_S1024x3072_S1024x1024_S1024x4096_d1 (ix2 k j') rfl rfl (ix2 k q)
    (fun b hb => match b, hb with | ⟨0, _⟩, _ => rfl | ⟨1, _⟩, hb => absurd rfl hb) hj.symm

/-- A vector of length n as the row [1, n], at (0, j). -/
theorem row_apply {n : Nat} (v : (⟨1, ![n]⟩ : Shape).Idx → α) (h : (⟨1, ![n]⟩ : Shape).ShapeCasts ⟨2, ![1, n]⟩) (j : Fin n) :
    shapeCast ⟨2, ![1, n]⟩ v h (ix2 0 j) = v (ix1 j) := by
  refine (shapeCast_addUnit_apply ![n] v h (ix2 0 j)).trans ?_
  congr 1
  funext a
  match a with | ⟨0, _⟩ => rfl

/-- [1, 3072] beside [1, 1024]: a column below 3072 is the left row's. -/
theorem rows_left (a : S1x3072.Idx → α) (b : S1x1024.Idx → α) (j : Fin 3072) :
    concatenate S1x4096 1 [⟨S1x3072, a⟩, ⟨S1x1024, b⟩] concatenates_S1x3072_S1x1024_S1x4096_d1
      (ix2 0 ⟨j.val, by have := j.isLt; omega⟩) = a (ix2 0 j) :=
  concatenate_pair_apply_left (t := S1x4096) (s₁ := S1x3072) (s₂ := S1x1024) 1 a b
    concatenates_S1x3072_S1x1024_S1x4096_d1 (ix2 0 ⟨j.val, by have := j.isLt; omega⟩) rfl (ix2 0 j)
    (fun b => match b with | ⟨0, _⟩ => rfl | ⟨1, _⟩ => rfl)

/-- A column 3072 + q is the right row's column q. -/
theorem rows_right (a : S1x3072.Idx → α) (b : S1x1024.Idx → α) (q : Fin 1024) (j' : Fin 4096) (hj : j'.val = q.val + 3072) :
    concatenate S1x4096 1 [⟨S1x3072, a⟩, ⟨S1x1024, b⟩] concatenates_S1x3072_S1x1024_S1x4096_d1
      (ix2 0 j') = b (ix2 0 q) :=
  concatenate_pair_apply_right (t := S1x4096) (s₁ := S1x3072) (s₂ := S1x1024) 1 a b
    concatenates_S1x3072_S1x1024_S1x4096_d1 (ix2 0 j') rfl rfl (ix2 0 q)
    (fun b hb => match b, hb with | ⟨0, _⟩, _ => rfl | ⟨1, _⟩, hb => absurd rfl hb) hj.symm

end Generic

/-! ## The three operands as the region finds them -/

variable (m : (ℓ : Loc nD τ sig) → Buf (Elt Ideal) ℓ)

/-- The fused x-weights: W_ifo_x beside W_b_x. -/
theorem w4x_eq (c : Dev nD) : (V m c main_v1 : S1024x4096.Idx → EReal) = truncf (F := Ideal) .bf16 (concatenate S1024x4096 1
      [⟨S1024x3072, m ((c : Thread nD τ).loc main_arg3)⟩, ⟨S1024x1024, m ((c : Thread nD τ).loc main_arg7)⟩]
      concatenates_S1024x3072_S1024x1024_S1024x4096_d1) bitsLt_bf16_f32 := by
  dsimp only [Gen.V, Gen.hostOps0]
  after_results

/-- The fused h-weights: W_ifo_h beside W_b_h. -/
theorem w4h_eq (c : Dev nD) : (V m c main_v3 : S1024x4096.Idx → EReal) = truncf (F := Ideal) .bf16 (concatenate S1024x4096 1
      [⟨S1024x3072, m ((c : Thread nD τ).loc main_arg5)⟩, ⟨S1024x1024, m ((c : Thread nD τ).loc main_arg9)⟩]
      concatenates_S1024x3072_S1024x1024_S1024x4096_d1) bitsLt_bf16_f32 := by
  dsimp only [Gen.V, Gen.hostOps0]
  after_results

theorem w4x_gate (c : Dev nD) (k : Fin 1024) (j : Fin 3072) :
    (V m c main_v1 : S1024x4096.Idx → EReal) (ix2 k ⟨j.val, by have := j.isLt; omega⟩)
      = (m ((c : Thread nD τ).loc main_arg3) : S1024x3072.Idx → EReal) (ix2 k j) := by
  rw [w4x_eq]
  exact beside_left (α := EReal) (m ((c : Thread nD τ).loc main_arg3)) (m ((c : Thread nD τ).loc main_arg7)) k j

theorem w4x_cand (c : Dev nD) (k : Fin 1024) (q : Fin 1024) (j' : Fin 4096) (hj : j'.val = q.val + 3072) :
    (V m c main_v1 : S1024x4096.Idx → EReal) (ix2 k j')
      = (m ((c : Thread nD τ).loc main_arg7) : S1024x1024.Idx → EReal) (ix2 k q) := by
  rw [w4x_eq]
  exact beside_right (α := EReal) (m ((c : Thread nD τ).loc main_arg3)) (m ((c : Thread nD τ).loc main_arg7)) k q j' hj

theorem w4h_gate (c : Dev nD) (k : Fin 1024) (j : Fin 3072) :
    (V m c main_v3 : S1024x4096.Idx → EReal) (ix2 k ⟨j.val, by have := j.isLt; omega⟩)
      = (m ((c : Thread nD τ).loc main_arg5) : S1024x3072.Idx → EReal) (ix2 k j) := by
  rw [w4h_eq]
  exact beside_left (α := EReal) (m ((c : Thread nD τ).loc main_arg5)) (m ((c : Thread nD τ).loc main_arg9)) k j

theorem w4h_cand (c : Dev nD) (k : Fin 1024) (q : Fin 1024) (j' : Fin 4096) (hj : j'.val = q.val + 3072) :
    (V m c main_v3 : S1024x4096.Idx → EReal) (ix2 k j')
      = (m ((c : Thread nD τ).loc main_arg9) : S1024x1024.Idx → EReal) (ix2 k q) := by
  rw [w4h_eq]
  exact beside_right (α := EReal) (m ((c : Thread nD τ).loc main_arg5)) (m ((c : Thread nD τ).loc main_arg9)) k q j' hj

/-- The fused bias row below column 3072: the sum of the two gate biases. -/
theorem b4_gate (c : Dev nD) (j : Fin 3072) :
    (V m c main_v8 : S1x4096.Idx → EReal) (ix2 0 ⟨j.val, by have := j.isLt; omega⟩)
      = addf (F := Ideal) (φ := .f32) (s := S3072) (m ((c : Thread nD τ).loc main_arg4)) (m ((c : Thread nD τ).loc main_arg6)) (ix1 j) := by
  dsimp only [Gen.V, Gen.hostOps0]
  after_results
  refine (rows_left _ _ j).trans ?_
  exact row_apply (n := 3072) (addf (F := Ideal) (φ := .f32) (s := S3072) (m ((c : Thread nD τ).loc main_arg4)) (m ((c : Thread nD τ).loc main_arg6))) shapeCasts_S3072_S1x3072 j

/-- From column 3072 on: the sum of the two candidate biases. -/
theorem b4_cand (c : Dev nD) (q : Fin 1024) (j' : Fin 4096) (hj : j'.val = q.val + 3072) :
    (V m c main_v8 : S1x4096.Idx → EReal) (ix2 0 j')
      = addf (F := Ideal) (φ := .f32) (s := S1024) (m ((c : Thread nD τ).loc main_arg8)) (m ((c : Thread nD τ).loc main_arg10)) (ix1 q) := by
  dsimp only [Gen.V, Gen.hostOps0]
  after_results
  refine (rows_right _ _ q j' hj).trans ?_
  exact row_apply (n := 1024) (addf (F := Ideal) (φ := .f32) (s := S1024) (m ((c : Thread nD τ).loc main_arg8)) (m ((c : Thread nD τ).loc main_arg10))) shapeCasts_S1024_S1x1024 q

end Cert.KernelIdeal.HostVals

end
-- ==== Proof.Whole.lean ====
/-
  The two output arrays after the run, as whole-array functions of the arguments.

  The grid has 32 points; point t sees rows 128 t .. 128 t + 127 of x, h_prev and c_prev, and the whole fused weights
  and bias, and writes back rows 128 t .. 128 t + 127 of the two outputs. Row p of a block at point t is row
  128 t + p of the whole array, so (by the per-point reading) what point t writes back is block t of the new hidden
  state, respectively of the new cell state, of the arguments. Every row r lies in the block of the point r / 128, so
  the 32 blocks cover each output array, which therefore ends holding that function everywhere.
-/
import proofs.«114930_j60206851555531_2_alg».proof.Proof.Gen.KernelIdeal.Value
import proofs.«114930_j60206851555531_2_alg».proof.Proof.Block
import proofs.«114930_j60206851555531_2_alg».proof.Proof.HostVals

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The new hidden state of the arguments. -/
abbrev hidG (c : Dev nD) : S4096x1024.Idx → EReal :=
  LstmSpec.hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The new cell state of the arguments. -/
abbrev cellG (c : Dev nD) : S4096x1024.Idx → EReal :=
  LstmSpec.cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem hz : (![0, 0] : Fin 2 → Nat) = fun _ => 0 := funext fun a => by fin_cases a <;> rfl

/-- The printed index maps over the grid: the three row-blocked inputs and the two outputs are at block row t, the
    three resident operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The row of the whole arrays that block row p is at point t. -/
def rowOf (t : Fin cfg0.N) (p : Fin 128) : Fin 4096 :=
  ⟨t.val * 128 + p.val, by have ht : t.val < 32 := t.isLt; have := p.isLt; omega⟩

/-- At point t the body's loads are, row by row and column by column, the whole arrays' entries. -/
theorem reads (c : Dev nD) (t : Fin cfg0.N) (p : Fin 128) :
    Block.Reads (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p (rowOf t p) := by
  obtain ⟨e00, e01, e10, e11, e20, e21, e30, e31, e40, e41, e50, e51, -, -, -, -⟩ := idx_facts t
  have r0 : ∀ k : Fin 1024, ((cfg0.win 0).blk t).view.emb (ix2 p k) = ix2 (rowOf t p) k := fun k => funext fun a => Fin.ext (by
    match a with
    | ⟨0, _⟩ => show win0_0.index t (0 : Fin 2) * 128 + 1 * p.val = t.val * 128 + p.val; omega
    | ⟨1, _⟩ => show win0_0.index t (1 : Fin 2) * 1024 + 1 * k.val = k.val; omega)
  have r1 : ∀ k : Fin 1024, ((cfg0.win 1).blk t).view.emb (ix2 p k) = ix2 (rowOf t p) k := fun k => funext fun a => Fin.ext (by
    match a with
    | ⟨0, _⟩ => show win0_1.index t (0 : Fin 2) * 128 + 1 * p.val = t.val * 128 + p.val; omega
    | ⟨1, _⟩ => show win0_1.index t (1 : Fin 2) * 1024 + 1 * k.val = k.val; omega)
  have r2 : ∀ k : Fin 1024, ((cfg0.win 2).blk t).view.emb (ix2 p k) = ix2 (rowOf t p) k := fun k => funext fun a => Fin.ext (by
    match a with
    | ⟨0, _⟩ => show win0_2.index t (0 : Fin 2) * 128 + 1 * p.val = t.val * 128 + p.val; omega
    | ⟨1, _⟩ => show win0_2.index t (1 : Fin 2) * 1024 + 1 * k.val = k.val; omega)
  have r3 : ∀ i : S1024x4096.Idx, ((cfg0.win 3).blk t).view.emb i = i := fun i => funext fun a => Fin.ext (by
    match a with
    | ⟨0, _⟩ => show win0_3.index t (0 : Fin 2) * 1024 + 1 * (i 0).val = (i 0).val; omega
    | ⟨1, _⟩ => show win0_3.index t (1 : Fin 2) * 4096 + 1 * (i 1).val = (i 1).val; omega)
  have r4 : ∀ i : S1024x4096.Idx, ((cfg0.win 4).blk t).view.emb i = i := fun i => funext fun a => Fin.ext (by
    match a with
    | ⟨0, _⟩ => show win0_4.index t (0 : Fin 2) * 1024 + 1 * (i 0).val = (i 0).val; omega
    | ⟨1, _⟩ => show win0_4.index t (1 : Fin 2) * 4096 + 1 * (i 1).val = (i 1).val; omega)
  have r5 : ∀ i : S1x4096.Idx, ((cfg0.win 5).blk t).view.emb i = i := fun i => funext fun a => Fin.ext (by
    match a with
    | ⟨0, _⟩ => show win0_5.index t (0 : Fin 2) * 1 + 1 * (i 0).val = (i 0).val; omega
    | ⟨1, _⟩ => show win0_5.index t (1 : Fin 2) * 4096 + 1 * (i 1).val = (i 1).val; omega)
  constructor
  · intro k
    show V m c main_arg0 (((cfg0.win 0).blk t).view.emb (ix2 p k)) = _
    rw [V_main_arg0, r0]
  · intro k
    show V m c main_arg1 (((cfg0.win 1).blk t).view.emb (ix2 p k)) = _
    rw [V_main_arg1, r1]
  · intro q
    show V m c main_arg2 (((cfg0.win 2).blk t).view.emb (ix2 p q)) = _
    rw [V_main_arg2, r2]
  · intro k j
    show V m c main_v1 (((cfg0.win 3).blk t).view.emb (ix2 k ⟨j.val, _⟩)) = _
    rw [r3]
    exact HostVals.w4x_gate m c k j
  · intro k q
    show V m c main_v1 (((cfg0.win 3).blk t).view.emb (ix2 k ⟨q.val + 3072, _⟩)) = _
    rw [r3]
    exact HostVals.w4x_cand m c k q _ rfl
  · intro k j
    show V m c main_v3 (((cfg0.win 4).blk t).view.emb (ix2 k ⟨j.val, _⟩)) = _
    rw [r4]
    exact HostVals.w4h_gate m c k j
  · intro k q
    show V m c main_v3 (((cfg0.win 4).blk t).view.emb (ix2 k ⟨q.val + 3072, _⟩)) = _
    rw [r4]
    exact HostVals.w4h_cand m c k q _ rfl
  · intro j
    show V m c main_v8 (((cfg0.win 5).blk t).view.emb (ix2 0 ⟨j.val, _⟩)) = _
    rw [r5]
    exact HostVals.b4_gate m c j
  · intro q
    show V m c main_v8 (((cfg0.win 5).blk t).view.emb (ix2 0 ⟨q.val + 3072, _⟩)) = _
    rw [r5]
    exact HostVals.b4_cand m c q _ rfl

/-- What point t writes back to the hidden output is block t of the new hidden state. -/
theorem flushed6_eq (c : Dev nD) (t : Fin cfg0.N) :
    (dats m 0 c).flushed 6 t = ((cfg0.win 6).blk t).view.read (Elt Ideal) (hidG m c) := by
  rw [Value.flushed6]
  unfold out0_6
  simp only [View.ld_unit_zero (S := S128x1024) hz, View.ld_unit_zero (S := S1024x4096) hz, View.ld_unit_zero (S := S1x4096) hz]
  obtain ⟨-, -, -, -, -, -, -, -, -, -, -, -, e60, e61, -, -⟩ := idx_facts t
  funext y
  obtain ⟨p, q, rfl⟩ : ∃ (p : Fin 128) (q : Fin 1024), y = ix2 p q := ⟨y 0, y 1, eq_ix2 y⟩
  show View.canon ([⟨r0_0, k0_pay4 (F := Ideal) (iblk m c 0 t) (iblk m c 1 t) (iblk m c 2 t) (iblk m c 3 t) (iblk m c 4 t) (iblk m c 5 t)⟩] : List (View.Piece (Elt Ideal) S128x1024 .f32)) (ix2 p q)
    = hidG m c (((cfg0.win 6).blk t).view.emb (ix2 p q))
  refine (Value.canon6_eq (iblk m c 0 t) (iblk m c 1 t) (iblk m c 3 t) (iblk m c 4 t) (iblk m c 5 t) (iblk m c 2 t) (ix2 p q)).trans ?_
  refine (Block.hid_at (reads m c t p) q).trans ?_
  refine congrArg (hidG m c) (funext fun a => Fin.ext ?_)
  match a with
  | ⟨0, _⟩ => show t.val * 128 + p.val = win0_6.index t (0 : Fin 2) * 128 + 1 * p.val; omega
  | ⟨1, _⟩ => show q.val = win0_6.index t (1 : Fin 2) * 1024 + 1 * q.val; omega

/-- What point t writes back to the cell output is block t of the new cell state. -/
theorem flushed7_eq (c : Dev nD) (t : Fin cfg0.N) :
    (dats m 0 c).flushed 7 t = ((cfg0.win 7).blk t).view.read (Elt Ideal) (cellG m c) := by
  rw [Value.flushed7]
  unfold out0_7
  simp only [View.ld_unit_zero (S := S128x1024) hz, View.ld_unit_zero (S := S1024x4096) hz, View.ld_unit_zero (S := S1x4096) hz]
  obtain ⟨-, -, -, -, -, -, -, -, -, -, -, -, -, -, e70, e71⟩ := idx_facts t
  funext y
  obtain ⟨p, q, rfl⟩ : ∃ (p : Fin 128) (q : Fin 1024), y = ix2 p q := ⟨y 0, y 1, eq_ix2 y⟩
  show View.canon ([⟨r0_0, k0_pay3 (F := Ideal) (iblk m c 0 t) (iblk m c 1 t) (iblk m c 2 t) (iblk m c 3 t) (iblk m c 4 t) (iblk m c 5 t)⟩] : List (View.Piece (Elt Ideal) S128x1024 .f32)) (ix2 p q)
    = cellG m c (((cfg0.win 7).blk t).view.emb (ix2 p q))
  refine (Value.canon7_eq (iblk m c 0 t) (iblk m c 1 t) (iblk m c 3 t) (iblk m c 4 t) (iblk m c 5 t) (iblk m c 2 t) (ix2 p q)).trans ?_
  refine (Block.cell_at (reads m c t p) q).trans ?_
  refine congrArg (cellG m c) (funext fun a => Fin.ext ?_)
  match a with
  | ⟨0, _⟩ => show t.val * 128 + p.val = win0_7.index t (0 : Fin 2) * 128 + 1 * p.val; omega
  | ⟨1, _⟩ => show q.val = win0_7.index t (1 : Fin 2) * 1024 + 1 * q.val; omega

/-- An index of the hidden output is in point t's block iff each coordinate is in the block's range. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v9_0).slice (win0_6.rect t)).set ↔ _
  rw [View.set_slice_whole, Rect.mem_set_unit]
  exact Iff.rfl

/-- The same for the cell output. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v9_1).slice (win0_7.rect t)).set ↔ _
  rw [View.set_slice_whole, Rect.mem_set_unit]
  exact Iff.rfl

/-- Row r of an output lies in the block of the point r / 128. -/
theorem point_of (i : S4096x1024.Idx) : ∃ t : Fin cfg0.N, t.val = (i 0).val / 128 := by
  have hi0 : (i 0).val < 4096 := (i 0).isLt
  exact ⟨⟨(i 0).val / 128, by show (i 0).val / 128 < grid0.N; rw [N_0]; omega⟩, rfl⟩

theorem cover6 (i : S4096x1024.Idx) : ∃ t : Fin cfg0.N, (cfg0.win 6).flush t = true ∧ i ∈ ((cfg0.win 6).blk t).view.set := by
  have hi1 : (i 1).val < 1024 := (i 1).isLt
  obtain ⟨t, ht⟩ := point_of i
  obtain ⟨-, -, -, -, -, -, -, -, -, -, -, -, e60, e61, -, -⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

theorem cover7 (i : S4096x1024.Idx) : ∃ t : Fin cfg0.N, (cfg0.win 7).flush t = true ∧ i ∈ ((cfg0.win 7).blk t).view.set := by
  have hi1 : (i 1).val < 1024 := (i 1).isLt
  obtain ⟨t, ht⟩ := point_of i
  obtain ⟨-, -, -, -, -, -, -, -, -, -, -, -, -, -, e70, e71⟩ := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- The hidden output array after the run. -/
theorem final6 (c : Dev nD) : (dats m 0 c).arrAt 6 cfg0.N = hidG m c :=
  (dats m 0 c).arrAt_eq_of_cover 6 (hidG m c) (fun t _ => flushed6_eq m c t) cover6

/-- The cell output array after the run. -/
theorem final7 (c : Dev nD) : (dats m 0 c).arrAt 7 cfg0.N = cellG m c :=
  (dats m 0 c).arrAt_eq_of_cover 7 (cellG m c) (fun t _ => flushed7_eq m c t) cover7

/-- The run: it terminates with the hidden output at the new hidden state of the arguments, the cell output at the new
    cell state, and the arguments unchanged. -/
theorem run : θ_run defs (onTc (τ := τ) (main (F := Ideal))) ⟨m, fun _ => 0, ρ⟩ fun r => ∀ c : Dev nD,
      r.2.mem ((c : Thread nD τ).loc main_v9_0) = hidG m c
      ∧ r.2.mem ((c : Thread nD τ).loc main_v9_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final6 m c), (h c).2.1.trans (final7 m c), (h c).2.2⟩)
    (Value.run_blocks m ρ)

end Cert.KernelIdeal.Whole

end
-- ==== Proof.RefValue.lean ====
/-
  The reference's two results, index by index, are the new hidden state and the new cell state.

  The reference adds each dense layer's four summands in the order ((x·Wx + bx) + h·Wh) + bh, which is the order the
  pre-activation is defined with; it spells the logistic function out as 1 / (1 + exp(−z)), which is what the logistic
  function is on the extended reals; it takes the three gates as the column ranges 0 .. 1023, 1024 .. 2047 and
  2048 .. 3071 of the 3072-wide layer.
-/
import proofs.«114930_j60206851555531_2_alg».proof.Proof.Gen.ReferenceIdeal.Read
import proofs.«114930_j60206851555531_2_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

section
variable (x0 x1 x2 : (⟨S4096x1024, .f32⟩ : BufTy).Contents (Elt Ideal))
  (x3 : (⟨S1024x3072, .f32⟩ : BufTy).Contents (Elt Ideal)) (x4 : (⟨S3072, .f32⟩ : BufTy).Contents (Elt Ideal))
  (x5 : (⟨S1024x3072, .f32⟩ : BufTy).Contents (Elt Ideal)) (x6 : (⟨S3072, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))

/-- The gate layer's pre-activation, as the reference adds it up. -/
theorem gate_eq (i : S4096x3072.Idx) :
    val_main_v8 (F := Ideal) x0 x1 x3 x4 x5 x6 i = LstmSpec.densePre x0 x1 x3 x5 x4 x6 (i 0) (i 1) := by
  have el0 : ∀ k, lidx_main_v0 i k = ix2 (i 0) k := fun k => funext fun a => match a with | ⟨0, _⟩ => rfl | ⟨1, _⟩ => rfl
  have er0 : ∀ k, ridx_main_v0 i k = ix2 k (i 1) := fun k => funext fun a => match a with | ⟨0, _⟩ => rfl | ⟨1, _⟩ => rfl
  have el4 : ∀ k, lidx_main_v4 i k = ix2 (i 0) k := fun k => funext fun a => match a with | ⟨0, _⟩ => rfl | ⟨1, _⟩ => rfl
  have er4 : ∀ k, ridx_main_v4 i k = ix2 k (i 1) := fun k => funext fun a => match a with | ⟨0, _⟩ => rfl | ⟨1, _⟩ => rfl
  have eb2 : idx_main_v1 (idx_main_v2 i) = ix1 (i 1) := funext fun a => match a with | ⟨0, _⟩ => rfl
  have eb7 : idx_main_v6 (idx_main_v7 i) = ix1 (i 1) := funext fun a => match a with | ⟨0, _⟩ => rfl
  rw [val_main_v8_apply, val_main_v5_apply, val_main_v3_apply, val_main_v0_apply, val_main_v2_apply, val_main_v1_apply,
    val_main_v4_apply, val_main_v7_apply, val_main_v6_apply]
  simp only [el0, er0, el4, er4, eb2, eb7]
  rfl

/-- The candidate layer's pre-activation. -/
theorem cand_eq (i : S4096x1024.Idx) :
    val_main_v26 (F := Ideal) x0 x1 x7 x8 x9 x10 i = LstmSpec.densePre x0 x1 x7 x9 x8 x10 (i 0) (i 1) := by
  have el0 : ∀ k, lidx_main_v18 i k = ix2 (i 0) k := fun k => funext fun a => match a with | ⟨0, _⟩ => rfl | ⟨1, _⟩ => rfl
  have er0 : ∀ k, ridx_main_v18 i k = ix2 k (i 1) := fun k => funext fun a => match a with | ⟨0, _⟩ => rfl | ⟨1, _⟩ => rfl
  have el4 : ∀ k, lidx_main_v22 i k = ix2 (i 0) k := fun k => funext fun a => match a with | ⟨0, _⟩ => rfl | ⟨1, _⟩ => rfl
  have er4 : ∀ k, ridx_main_v22 i k = ix2 k (i 1) := fun k => funext fun a => match a with | ⟨0, _⟩ => rfl | ⟨1, _⟩ => rfl
  have eb2 : idx_main_v19 (idx_main_v20 i) = ix1 (i 1) := funext fun a => match a with | ⟨0, _⟩ => rfl
  have eb7 : idx_main_v24 (idx_main_v25 i) = ix1 (i 1) := funext fun a => match a with | ⟨0, _⟩ => rfl
  rw [val_main_v26_apply, val_main_v23_apply, val_main_v21_apply, val_main_v18_apply, val_main_v20_apply, val_main_v19_apply,
    val_main_v22_apply, val_main_v25_apply, val_main_v24_apply]
  simp only [el0, er0, el4, er4, eb2, eb7]
  rfl

/-- The three gates: the logistic function of the gate layer's pre-activation, 1 / (1 + exp(−z)) spelt out. -/
theorem sig_eq (i : S4096x3072.Idx) :
    val_main_v14 (F := Ideal) x0 x1 x3 x4 x5 x6 i = Ideal.logistic (LstmSpec.densePre x0 x1 x3 x5 x4 x6 (i 0) (i 1)) := by
  rw [val_main_v14_apply, val_main_v13_apply, val_main_cst_0_apply, val_main_v12_apply, val_main_v11_apply,
    val_main_cst_apply, val_main_v10_apply, val_main_v9_apply, gate_eq]
  show Ideal.div (Ideal.ofBits .f32 0x3F800000#32) (Ideal.ofBits .f32 0x3F800000#32 + Ideal.exp (-_)) = _
  rw [Ideal.ofBits_one_f32]
  rfl

/-- The reference's second result is the new cell state. -/
theorem cell_eq (i : S4096x1024.Idx) :
    val_main_v30 (F := Ideal) x0 x1 x2 x3 x4 x5 x6 x7 x8 x9 x10 i = LstmSpec.cellNew x0 x1 x2 x3 x4 x5 x6 x7 x8 x9 x10 i := by
  rw [val_main_v30_apply, val_main_v28_apply, val_main_v29_apply, val_main_v27_apply, val_main_v15_apply, val_main_v16_apply,
    sig_eq, sig_eq, cand_eq]
  unfold LstmSpec.cellNew LstmSpec.cellOf LstmSpec.colI LstmSpec.colF
  have e15 : idx_main_v15 i = ix2 (i 0) ⟨(i 1).val, by have h : (i 1).val < 1024 := (i 1).isLt; omega⟩ :=
    funext fun a => match a with | ⟨0, _⟩ => rfl | ⟨1, _⟩ => rfl
  have e16 : idx_main_v16 i = ix2 (i 0) ⟨(i 1).val + 1024, by have h : (i 1).val < 1024 := (i 1).isLt; omega⟩ :=
    funext fun a => match a with | ⟨0, _⟩ => rfl | ⟨1, _⟩ => Fin.ext (Nat.add_comm 1024 (i 1).val)
  rw [e15, e16]
  rfl

/-- The reference's first result is the new hidden state. -/
theorem hid_eq (i : S4096x1024.Idx) :
    val_main_v32 (F := Ideal) x0 x1 x2 x3 x4 x5 x6 x7 x8 x9 x10 i = LstmSpec.hidNew x0 x1 x2 x3 x4 x5 x6 x7 x8 x9 x10 i := by
  rw [val_main_v32_apply, val_main_v31_apply, val_main_v17_apply, sig_eq, cell_eq]
  unfold LstmSpec.hidNew LstmSpec.hidOf LstmSpec.colO
  have e17 : idx_main_v17 i = ix2 (i 0) ⟨(i 1).val + 2048, by have h : (i 1).val < 1024 := (i 1).isLt; omega⟩ :=
    funext fun a => match a with | ⟨0, _⟩ => rfl | ⟨1, _⟩ => Fin.ext (Nat.add_comm 2048 (i 1).val)
  rw [e17]
  rfl

end

end Cert.ReferenceIdeal.RefValue

end
-- ==== Proof.lean ====
/-
  One step of a recurrent cell with input, forget and output gates: from x, h_prev, c_prev [4096, 1024] and two dense
  layers (one 3072 wide for the three gates, one 1024 wide for the candidate, each with an x-part and an h-part),
      c = logistic(z_i) · tanh(a) + logistic(z_f) · c_prev,      h = logistic(z_o) · tanh(c).

  The kernel puts the two layers' weights side by side into one [1024, 4096] matrix per operand, adds the x-bias and
  the h-bias of each layer before the call and puts the two sums side by side, and per block of 128 rows forms
  x·W4x + h·W4h + b4 with two matrix products, cuts it into the four column ranges, and applies the same pointwise
  formulas. The reference computes each layer as ((x·Wx + bx) + h·Wh) + bh and the logistic function as
  1 / (1 + exp(−z)). On the extended reals a change of float format is the identity, a matrix product into a zero
  accumulator is the plain sum over the contracted axis, the logistic function is that quotient, and the two groupings
  of the four summands agree because addition is commutative and associative; so both programs end with the same two
  arrays (Spec: the functions; Proj, Block, HostVals, Whole: the kernel's arrays are those functions; RefValue: so are
  the reference's). The precondition is not used by the value argument. The claim's conjunct about the kernel's
  idealization is stated as `True` (the idealization pass recorded no rewrite), so it is proved by `trivial`.
-/
import proofs.«114930_j60206851555531_2_alg».proof.Defs
import proofs.«114930_j60206851555531_2_alg».proof.Proof.Gen.Kernel
import proofs.«114930_j60206851555531_2_alg».proof.Proof.Gen.Kernel.Skeleton
import proofs.«114930_j60206851555531_2_alg».proof.Proof.Gen.Kernel.Launch
import proofs.«114930_j60206851555531_2_alg».proof.Proof.Gen.Kernel.Points
import proofs.«114930_j60206851555531_2_alg».proof.Proof.Gen.Kernel.Frame
import proofs.«114930_j60206851555531_2_alg».proof.Proof.Gen.KernelIdeal
import proofs.«114930_j60206851555531_2_alg».proof.Proof.Gen.KernelIdeal.Skeleton
import proofs.«114930_j60206851555531_2_alg».proof.Proof.Gen.KernelIdeal.Launch
import proofs.«114930_j60206851555531_2_alg».proof.Proof.Gen.KernelIdeal.Points
import proofs.«114930_j60206851555531_2_alg».proof.Proof.Gen.KernelIdeal.Frame
import proofs.«114930_j60206851555531_2_alg».proof.Proof.Gen.ReferenceIdeal
import proofs.«114930_j60206851555531_2_alg».proof.Proof.Gen.Pre_finite_inputs
import proofs.«114930_j60206851555531_2_alg».proof.Proof.Gen.KernelIdeal.Value
import proofs.«114930_j60206851555531_2_alg».proof.Proof.Gen.ReferenceIdeal.Run
import proofs.«114930_j60206851555531_2_alg».proof.Proof.Gen.ReferenceIdeal.Read
import proofs.«114930_j60206851555531_2_alg».proof.Proof.Whole
import proofs.«114930_j60206851555531_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eleven arguments, the kernel's two output arrays and the reference's two results
    are the new hidden state and the new cell state of those arguments. -/
theorem algebraic : Cert.algebraic_KernelIdeal_ReferenceIdeal := by
  intro m ρ m' ρ' _ hagree
  refine ⟨fun c => Cert.KernelIdeal.Whole.hidG m c, fun c => Cert.KernelIdeal.Whole.cellG m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v32_eq]
    funext i
    rw [Cert.ReferenceIdeal.RefValue.hid_eq, a0, a1, a2, a3, a4, a5, a6, a7, a8, a9, a10]
  · obtain ⟨a0, a1, a2, a3, a4, a5, a6, a7, a8, a9, a10⟩ := hagree c
    rw [Cert.ReferenceIdeal.Read.val_main_v30_eq]
    funext i
    rw [Cert.ReferenceIdeal.RefValue.cell_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
